-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S5000x256 : Shape := ⟨2, ![5000, 256]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 124
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x40, .f32⟩
  | .hbm, ⟨66, _⟩ => ⟨S100000, .i32⟩
  | .hbm, ⟨67, _⟩ => ⟨S1x1600000, .i32⟩
  | .hbm, ⟨68, _⟩ => ⟨S1600000, .i32⟩
  | .hbm, ⟨69, _⟩ => ⟨S1700000, .i32⟩
  | .hbm, ⟨70, _⟩ => ⟨S1x1600000, .i32⟩
  | .hbm, ⟨71, _⟩ => ⟨S1600000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x40, .f32⟩
  | .hbm, ⟨115, _⟩ => ⟨S1700000x1, .f32⟩
  | .hbm, ⟨116, _⟩ => ⟨S1700000x40, .f32⟩
  | .hbm, ⟨117, _⟩ => ⟨S1700000x40, .f32⟩
  | .hbm, ⟨118, _⟩ => ⟨S_, .f32⟩
  | .hbm, ⟨119, _⟩ => ⟨S100000x40, .f32⟩
  | .hbm, ⟨120, _⟩ => ⟨S1700000x1, .i32⟩
  | .hbm, ⟨121, _⟩ => ⟨S100000x40, .f32⟩
  | .hbm, ⟨122, _⟩ => ⟨S1x40, .f32⟩
  | .hbm, ⟨123, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x40, .f32⟩
  | 5 => ⟨S40, .f32⟩
  | 6 => ⟨S100000x128, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x40, .f32⟩
  | 70 => ⟨S100000, .i32⟩
  | 71 => ⟨S1x1600000, .i32⟩
  | 72 => ⟨S1600000, .i32⟩
  | 73 => ⟨S1700000, .i32⟩
  | 74 => ⟨S1x1600000, .i32⟩
  | 75 => ⟨S1600000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x40, .f32⟩
  | 119 => ⟨S1700000x1, .f32⟩
  | 120 => ⟨S1700000x40, .f32⟩
  | 121 => ⟨S1700000x40, .f32⟩
  | 122 => ⟨S_, .f32⟩
  | 123 => ⟨S100000x40, .f32⟩
  | 124 => ⟨S1700000x1, .i32⟩
  | 125 => ⟨S100000x40, .f32⟩
  | 126 => ⟨S1x40, .f32⟩
  | 127 => ⟨S100000x40, .f32⟩
  | _ => ⟨S100000x256, .f32⟩

abbrev hbmTy0_1 (i : Nat) : BufTy := match i % 128 with
  | 0 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its RESULT named.

  @main of the kernel is ten segments: four pipelined regions (two matrix products, two bias passes) among six stretches of
  host operations. The generated frame certificate runs them in order and keeps, at every segment boundary, the contents of
  every buffer as a fold from the launch memory (`Gen.W0` … `Gen.W10`), but its conclusion only says that the argument
  arrays end as launched. Here the same run is concluded with one more fact: the result buffer ends at the last boundary's
  contents `Gen.W10 m ρ c` of that buffer — which the value modules then read back, segment by segment, as the two-layer
  network of the arguments.
-/
import proofs.«104721_j30751965839417_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last segment
    boundary's contents and the argument arrays as launched: the launch of the ten segments, the last thread state
    (every unscoped buffer at `W10`) read against the final memory. -/
theorem run : θ_run defs (onTc (τ := τ) (main (F := F))) ⟨m, fun _ => 0, ρ⟩ (fun r => ∀ c : Dev nD,
      r.2.mem ((c.tc : Thread nD τ).loc main_v91) = W10 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v91 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.RunValue

end
-- ==== Proof.GraphLayer.lean ====
/-
  The graph-convolution layer as one function of its arrays, over the reference program's shapes.

  Both programs compute, twice,  out = A_hat (X W) + b  with  A_hat = D^(-1/2) (A + I) D^(-1/2): the edge list e (two rows of
  1,600,000 node numbers: sources and targets) is extended by the 100,000 self loops; the degree of a node is the number of
  extended edges that end in it (a scatter-add of ones); its weight is 1/sqrt(degree) where the degree is positive and 0
  elsewhere; an edge's coefficient is the product of the weights of its two ends (two gathers, negative node numbers wrapped by
  the node count first); the transformed feature rows are gathered at the sources, scaled by the coefficients and summed into
  the targets (a scatter-add into zeros). The aggregation below is that chain of host operations spelt once, as a function of
  the transformed features h and of e; the layer functions compose it with the matrix product and the bias, the first layer
  also with max(., 0). Nothing here is opened by the certificate: the two programs apply the SAME chain, so it is carried as a
  name from the kernel's side to the reference's.
-/
import proofs.«104721_j30751965839417_1_alg».proof.ReferenceIdeal

noncomputable section

namespace Cert.GraphLayer

open Cert.ReferenceIdeal Cert.ReferenceIdeal.Facts₀ Cert.ReferenceIdeal.Facts Idealize.ShloMosaic

variable {F : FTy → Type} [FloatOps F] [Cert.ReferenceIdeal.Facts]

/-- Row `j` (0: sources, 1: targets) of the edge list followed by the self loops 0, 1, …, 99999. -/
def ends0 (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

def ends1 (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counts from the end: `v < 0 ? v + 100000 : v`, as an index column. -/
def wrapped (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The number of extended edges ending in each node. -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (ends1 e)) (broadcastInDim S1700000 ![] bcast_S_S1700000 (constant S_ .f32 0x3F800000#32))

/-- `1/sqrt(degree)` where the degree is positive, `0` elsewhere. -/
def weight (e : (⟨S2x1600000, .i32⟩ : BufTy).Contents (Elt F)) : (⟨S100000, .f32⟩ : BufTy).Contents (Elt F) :=
  select (cmpf (F := F) .ogt (degree e) (broadcastInDim S100000 ![] bcast_S_S100000 (constant S_ .f32 0x00000000#32))) (Host.rsqrt (degree e)) (broadcastInDim S100000 ![] bcast_S_S100000 (id (constant S_ .f32 0x00000000#32)))

/-- An extended edge's coefficient: the product of the weights of its source and of its target. -/
def coefficient (e : (⟨S2x1600000, .i32⟩ : BufTy).Contents (Elt F)) : (⟨S1700000x1, .f32⟩ : BufTy).Contents (Elt F) :=
  broadcastInDim S1700000x1 ![0] bcast_S1700000_S1700000x1_0 (mulf (Host.gather gather_S100000_S1700000x1_S1700000_n_0_n_n_0_1_1 (weight e) (wrapped (ends0 e))) (Host.gather gather_S100000_S1700000x1_S1700000_n_0_n_n_0_1_1 (weight e) (wrapped (ends1 e))))

/-- The normalised aggregation of 128-column rows: gather at the sources, scale by the coefficients, sum into the targets. -/
def aggregate128 (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (ends1 e)) (mulf (Host.gather gather_S100000x128_S1700000x1_S1700000x128_1_0_n_n_0_1_1128 h (wrapped (ends0 e))) (broadcastInDim S1700000x128 ![0, 1] bcast_S1700000x1_S1700000x128_0_1 (coefficient e)))

/-- The same aggregation of 40-column rows. -/
def aggregate40 (h : (⟨S100000x40, .f32⟩ : BufTy).Contents (Elt F)) (e : (⟨S2x1600000, .i32⟩ : BufTy).Contents (Elt F)) :
    (⟨S100000x40, .f32⟩ : BufTy).Contents (Elt F) :=
  Host.scatterAdd scatter_S100000x40_S1700000x1_S1700000x40_1_0_0_1 (broadcastInDim S100000x40 ![] bcast_S_S100000x40 (constant S_ .f32 0x00000000#32)) (broadcastInDim S1700000x1 ![0] bcast_S1700000_S1700000x1_0 (ends1 e)) (mulf (Host.gather gather_S100000x40_S1700000x1_S1700000x40_1_0_n_n_0_1_140 h (wrapped (ends0 e))) (broadcastInDim S1700000x40 ![0, 1] bcast_S1700000x1_S1700000x40_0_1 (coefficient e)))

/-- The first layer: `max (A_hat (x w1) + b1, 0)`, the bias row repeated down the rows. -/
def hidden (x : (⟨S100000x256, .f32⟩ : BufTy).Contents (Elt F)) (e : (⟨S2x1600000, .i32⟩ : BufTy).Contents (Elt F))
    (w1 : (⟨S256x128, .f32⟩ : BufTy).Contents (Elt F)) (b1 : (⟨S128, .f32⟩ : BufTy).Contents (Elt F)) :
    (⟨S100000x128, .f32⟩ : BufTy).Contents (Elt F) :=
  maximumf (addf (aggregate128 (Host.dotGeneral dot_S100000x256_S256x128_S100000x128_1_0_0_1_n_n none x w1) e) (broadcastInDim S100000x128 ![0, 1] bcast_S1x128_S100000x128_0_1 (broadcastInDim S1x128 ![1] bcast_S128_S1x128_1 b1))) (broadcastInDim S100000x128 ![] bcast_S_S100000x128 (constant S_ .f32 0x00000000#32))

/-- The two layers: `A_hat (hidden w2) + b2`. -/
def network (x : (⟨S100000x256, .f32⟩ : BufTy).Contents (Elt F)) (e : (⟨S2x1600000, .i32⟩ : BufTy).Contents (Elt F))
    (w1 : (⟨S256x128, .f32⟩ : BufTy).Contents (Elt F)) (b1 : (⟨S128, .f32⟩ : BufTy).Contents (Elt F))
    (w2 : (⟨S128x40, .f32⟩ : BufTy).Contents (Elt F)) (b2 : (⟨S40, .f32⟩ : BufTy).Contents (Elt F)) :
    (⟨S100000x40, .f32⟩ : BufTy).Contents (Elt F) :=
  addf (aggregate40 (Host.dotGeneral dot_S100000x128_S128x40_S100000x40_1_0_0_1_n_n none (hidden x e w1 b1) w2) e) (broadcastInDim S100000x40 ![0, 1] bcast_S1x40_S100000x40_0_1 (broadcastInDim S1x40 ![1] bcast_S40_S1x40_1 b2))

end Cert.GraphLayer

end
-- ==== Proof.HostChain.lean ====
/-
  The kernel's two stretches of host operations, read back at the buffers the regions take.

  Between its pipelined regions the kernel's @main runs the same host operations as the reference: the extended edge
  list, the degrees and weights, the coefficients, a gather of the transformed rows, their scaling and the scatter-add into
  the targets. Read at region 1's (region 3's) two input arrays, the contents after the first (second) stretch are the
  aggregation chain of `GraphLayer.lean` applied to the previous region's output, and the bias vector reshaped to one row;
  every argument array is still as launched. All of it holds for any float instance: nothing is computed here, each
  operation's result is only read at its own buffer.
-/
import proofs.«104721_j30751965839417_1_alg».proof.Proof.Gen.KernelIdeal.Frame
import proofs.«104721_j30751965839417_1_alg».proof.Proof.Gen.ReferenceIdeal
import proofs.«104721_j30751965839417_1_alg».proof.Proof.GraphLayer
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem

open Idealize.ShloMosaic.StableHlo in
/-- Each remaining host operation's result read at its own buffer is its function's value, and at another buffer what was
    there before: rewritten outermost first until none is left. -/
macro "host_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable {F : FTy → Type} [FloatOps F] (m : (ℓ : Loc nD τ sig) → Buf (Elt F) ℓ) (ρ : Dev nD → PrngReg)

/-! ## The arguments, where the segments read them -/

theorem W1_arg1 (c : Dev nD) : W1 m ρ c (Proc.devRef .tc main_arg1) = m ((c : Thread nD τ).loc main_arg1) :=
  W1_of_ne m ρ c main_arg1 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)

/-- The first host stretch writes no argument. -/
theorem W4_arg1 (c : Dev nD) : W4 m ρ c (Proc.devRef .tc main_arg1) = m ((c : Thread nD τ).loc main_arg1) := by
  refine Eq.trans ?_ (W1_arg1 m ρ c)
  show StableHlo.after hostOps1_2 (StableHlo.after hostOps1_1 (StableHlo.after hostOps1 (W1 m ρ c))) (Proc.devRef .tc main_arg1) = _
  generalize W1 m ρ c = Wb
  simp only [hostOps1, hostOps1_1, hostOps1_2]
  after_results_simp
theorem W4_arg4 (c : Dev nD) : W4 m ρ c (Proc.devRef .tc main_arg4) = m ((c : Thread nD τ).loc main_arg4) := by
  refine Eq.trans ?_ (W1_arg4 m ρ c)
  show StableHlo.after hostOps1_2 (StableHlo.after hostOps1_1 (StableHlo.after hostOps1 (W1 m ρ c))) (Proc.devRef .tc main_arg4) = _
  generalize W1 m ρ c = Wb
  simp only [hostOps1, hostOps1_1, hostOps1_2]
  after_results_simp
theorem W4_arg5 (c : Dev nD) : W4 m ρ c (Proc.devRef .tc main_arg5) = m ((c : Thread nD τ).loc main_arg5) := by
  refine Eq.trans ?_ (W1_arg5 m ρ c)
  show StableHlo.after hostOps1_2 (StableHlo.after hostOps1_1 (StableHlo.after hostOps1 (W1 m ρ c))) (Proc.devRef .tc main_arg5) = _
  generalize W1 m ρ c = Wb
  simp only [hostOps1, hostOps1_1, hostOps1_2]
  after_results_simp

/-- Regions 1 and 2 write no argument either. -/
theorem W5_arg4 (c : Dev nD) : W5 m ρ c (Proc.devRef .tc main_arg4) = m ((c : Thread nD τ).loc main_arg4) :=
  (W5_of_ne m ρ c main_arg4 (by decide)).trans (W4_arg4 m ρ c)
theorem W6_arg1 (c : Dev nD) : W6 m ρ c (Proc.devRef .tc main_arg1) = m ((c : Thread nD τ).loc main_arg1) :=
  ((W6_of_ne m ρ c main_arg1 (by decide)).trans (W5_of_ne m ρ c main_arg1 (by decide))).trans (W4_arg1 m ρ c)
theorem W6_arg5 (c : Dev nD) : W6 m ρ c (Proc.devRef .tc main_arg5) = m ((c : Thread nD τ).loc main_arg5) :=
  ((W6_of_ne m ρ c main_arg5 (by decide)).trans (W5_of_ne m ρ c main_arg5 (by decide))).trans (W4_arg5 m ρ c)

/-! ## The first stretch -/

set_option maxHeartbeats 4000000 in
/-- The first host stretch leaves the aggregation of region 0's output in region 1's first input array. -/
theorem W4_v43 (c : Dev nD) :
    W4 m ρ c (Proc.devRef .tc main_v43)
      = Cert.GraphLayer.aggregate128 (F := F) (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v43) = _
  generalize W1 m ρ c = Wb
  simp only [hostOps1, hostOps1_1, hostOps1_2]
  after_results_simp
  host_results
  rfl

/-- … and the first bias reshaped to one row in its second. -/
theorem W4_v44 (c : Dev nD) :
    W4 m ρ c (Proc.devRef .tc main_v44) = shapeCast S1x128 (W1 m ρ c (Proc.devRef .tc main_arg3)) shapeCasts_S128_S1x128 := by
  show StableHlo.after hostOps1_2 (StableHlo.after hostOps1_1 (StableHlo.after hostOps1 (W1 m ρ c))) (Proc.devRef .tc main_v44) = _
  generalize W1 m ρ c = Wb
  simp only [hostOps1, hostOps1_1, hostOps1_2]
  after_results_simp
  rfl

/-! ## The second stretch -/

set_option maxHeartbeats 4000000 in
/-- The second host stretch leaves the aggregation of region 2's output in region 3's first input array. -/
theorem W9_v89 (c : Dev nD) :
    W9 m ρ c (Proc.devRef .tc main_v89)
      = Cert.GraphLayer.aggregate40 (F := F) (W6 m ρ c (Proc.devRef .tc main_v46)) (W6 m ρ c (Proc.devRef .tc main_arg1)) := by
  show StableHlo.after hostOps3_2 (StableHlo.after hostOps3_1 (StableHlo.after hostOps3 (W6 m ρ c))) (Proc.devRef .tc main_v89) = _
  generalize W6 m ρ c = Wb
  simp only [hostOps3, hostOps3_1, hostOps3_2]
  after_results_simp
  host_results
  rfl

set_option maxHeartbeats 4000000 in
/-- … and the second bias reshaped to one row in its second. -/
theorem W9_v90 (c : Dev nD) :
    W9 m ρ c (Proc.devRef .tc main_v90) = shapeCast S1x40 (W6 m ρ c (Proc.devRef .tc main_arg5)) shapeCasts_S40_S1x40 := by
  show StableHlo.after hostOps3_2 (StableHlo.after hostOps3_1 (StableHlo.after hostOps3 (W6 m ρ c))) (Proc.devRef .tc main_v90) = _
  generalize W6 m ρ c = Wb
  simp only [hostOps3, hostOps3_1, hostOps3_2]
  after_results_simp
  rfl

end Cert.KernelIdeal.HostChain

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«104721_j30751965839417_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.TileProducts.lean ====
/-
  The two matrix products of the two-layer graph convolution, each as ONE function of the arrays its region finds.

  Each product runs over a grid of twenty points. Point t loads a block of 5000 rows of the left array (rows
  5000·t … 5000·t + 4999, all columns) and the whole right matrix, multiplies them on the matrix unit into a zero
  accumulator, and writes the [5000, N] result back as the same 5000 rows of the output array. Over the extended
  reals the narrowing of the operands is the identity and the matrix unit's product is the exact sum of products, so
  what point t writes back is block t of `rowsTimes` of the two whole arrays: entry (r, q) of the output depends only
  on row r of the left array and column q of the right one, and row r lies in exactly the block r / 5000. The twenty
  blocks cover the output, so after the region the output array IS `rowsTimes` of the two arrays.
-/
import proofs.«104721_j30751965839417_1_alg».proof.Proof.Gen.KernelIdeal.Frame
import proofs.«104721_j30751965839417_1_alg».proof.Proof.LibRowsTimes
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section

namespace Cert.KernelIdeal.TileProducts
open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offsets of a whole-block access, as the constant function. -/
theorem zeroOffsets : (![0, 0] : Fin 2 → Nat) = fun _ => 0 := funext fun a => by fin_cases a <;> rfl

/-! ## The first product: a [100000, 256] array times a [256, 128] matrix -/

/-- The three index maps over the twenty grid points: the left operand's row block moves with the output's, on the
    column axis every block index is zero, the right operand's block index is zero on both axes, and the output's row
    block index stays below twenty. -/
theorem indexFacts0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row blocks of the output is some grid point's. -/
theorem indexOnto0 : ∀ q : Fin 20, ∃ t : Fin cfg0.N, win0_2.index t = ![q.val, 0] :=
  (by decide +kernel : ∀ q : Fin 20, ∃ t : Fin grid0.N, win0_2.index t = ![q.val, 0])

/-- The body's payload at entry (p, q): over the extended reals the narrowing of both blocks is the identity and the
    matrix unit's product into the zero accumulator is the sum over k of the products of the entries (p, k) and (k, q). -/
theorem payload0_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact RowsTimes.matmul_zero_apply dot_S5000x256_S256x128_S5000x128_1_0_0_1_n_n rfl rfl rfl rfl rfl rfl rfl rfl none _ _ p q

/-- The left operand's block at point t is a block of 5000 rows: its row p is row (block index)·5000 + p of the array. -/
theorem rowBlock0_apply (c : Dev nD) (t : Fin cfg0.N) (p : Fin 5000) (k : Fin 256) (r : Fin 100000)
    (hr : r.val = win0_2.index t (0 : Fin 2) * 5000 + p.val) :
    (iblk0 V c 0 t : Vec Ideal S5000x256 .f32) (ix2 p k)
      = (V c (Pipeline.arrRef spec0 0) : S100000x256.Idx → Elt Ideal .f32) (ix2 r k) := by
  obtain ⟨e0, e1, -, -, -, -⟩ := indexFacts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = r.val; omega
  | ⟨1, _⟩ => show win0_0.index t (1 : Fin 2) * 256 + 1 * k.val = k.val; omega

/-- The right operand's block at every point is the whole matrix. -/
theorem wholeBlock0_apply (c : Dev nD) (t : Fin cfg0.N) (k : Fin 256) (q : Fin 128) :
    (iblk0 V c 1 t : Vec Ideal S256x128 .f32) (ix2 k q)
      = (V c (Pipeline.arrRef spec0 1) : S256x128.Idx → Elt Ideal .f32) (ix2 k q) := by
  obtain ⟨-, -, e2, e3, -, -⟩ := indexFacts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 256 + 1 * k.val = k.val; omega
  | ⟨1, _⟩ => show win0_1.index t (1 : Fin 2) * 128 + 1 * q.val = q.val; omega

/-- What point t writes back is block t of the product of the two arrays as the region finds them: entry (p, q) of the
    block is the sum over k of row (block index)·5000 + p of the left array against column q of the right one, which is
    the product's entry at the place the output's block puts (p, q). -/
theorem flushed0_eq (c : Dev nD) (t : Fin cfg0.N) :
    (dat0 (F := Ideal) V c).flushed 2 t = ((cfg0.win 2).blk t).view.read (Elt Ideal)
      (RowsTimes.rowsTimes (M := 100000) (K := 256) (N := 128) (V c (Pipeline.arrRef spec0 0)) (V c (Pipeline.arrRef spec0 1))) := by
  show (cfg0.win 2).cut (grid0.coords t) ((dat0 V c).after 2 t) = _
  rw [after0_2]
  unfold out0_2
  rw [View.canon_unit_zero zeroOffsets]
  simp only [View.ld_unit_zero (S := S5000x256) zeroOffsets, View.ld_unit_zero (S := S256x128) zeroOffsets]
  obtain ⟨-, -, -, -, e4, e5⟩ := indexFacts0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = RowsTimes.rowsTimes (M := 100000) (K := 256) (N := 128) (V c (Pipeline.arrRef spec0 0)) (V c (Pipeline.arrRef spec0 1))
        (((cfg0.win 2).blk t).view.emb (ix2 p q))
  have hrow : win0_2.index t (0 : Fin 2) * 5000 + p.val < 100000 := by have := p.isLt; omega
  have hemb : ((cfg0.win 2).blk t).view.emb (ix2 p q)
      = (ix2 (⟨win0_2.index t (0 : Fin 2) * 5000 + p.val, hrow⟩ : Fin 100000) q : S100000x128.Idx) := by
    funext a
    apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  rw [hemb, RowsTimes.rowsTimes_apply, payload0_apply]
  refine Finset.sum_congr rfl fun k _ => ?_
  rw [rowBlock0_apply V c t p k ⟨win0_2.index t (0 : Fin 2) * 5000 + p.val, hrow⟩ rfl, wholeBlock0_apply V c t k q]

/-- An index of the output array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The twenty row blocks tile the output: row r is in the block of the point whose block index is r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := indexOnto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the product of the two arrays the region found: every point writes back its
    block of that product, and the blocks cover the array. -/
theorem product0 (c : Dev nD) :
    (dat0 (F := Ideal) V c).arrAt 2 cfg0.N
      = RowsTimes.rowsTimes (M := 100000) (K := 256) (N := 128) (V c (Pipeline.arrRef spec0 0)) (V c (Pipeline.arrRef spec0 1)) :=
  (dat0 (F := Ideal) V c).arrAt_eq_of_cover 2 _ (fun t _ => flushed0_eq V c t) cover0

/-! ## The second product: a [100000, 128] array times a [128, 40] matrix -/

/-- The three index maps over the twenty grid points: the left operand's row block moves with the output's, on the
    column axis every block index is zero, the right operand's block index is zero on both axes, and the output's row
    block index stays below twenty. -/
theorem indexFacts2 : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every one of the twenty row blocks of the output is some grid point's. -/
theorem indexOnto2 : ∀ q : Fin 20, ∃ t : Fin cfg2.N, win2_2.index t = ![q.val, 0] :=
  (by decide +kernel : ∀ q : Fin 20, ∃ t : Fin grid2.N, win2_2.index t = ![q.val, 0])

/-- The body's payload at entry (p, q): over the extended reals the narrowing of both blocks is the identity, so is the cast
    of a shape to itself, and the
    matrix unit's product into the zero accumulator is the sum over k of the products of the entries (p, k) and (k, q). -/
theorem payload2_apply (x0 : Vec Ideal S5000x128 .f32) (x1 : Vec Ideal S128x40 .f32) (p : Fin 5000) (q : Fin 40) :
    k2_pay1 x0 x1 (ix2 p q) = ∑ k : Fin 128, x0 (ix2 p k) * x1 (ix2 k q) := by
  unfold k2_pay1
  simp only [shapeCast_self]
  exact RowsTimes.matmul_zero_apply dot_S5000x128_S128x40_S5000x40_1_0_0_1_n_n rfl rfl rfl rfl rfl rfl rfl rfl none _ _ p q

/-- The left operand's block at point t is a block of 5000 rows: its row p is row (block index)·5000 + p of the array. -/
theorem rowBlock2_apply (c : Dev nD) (t : Fin cfg2.N) (p : Fin 5000) (k : Fin 128) (r : Fin 100000)
    (hr : r.val = win2_2.index t (0 : Fin 2) * 5000 + p.val) :
    (iblk2 V c 0 t : Vec Ideal S5000x128 .f32) (ix2 p k)
      = (V c (Pipeline.arrRef spec2 0) : S100000x128.Idx → Elt Ideal .f32) (ix2 r k) := by
  obtain ⟨e0, e1, -, -, -, -⟩ := indexFacts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- The right operand's block at every point is the whole matrix. -/
theorem wholeBlock2_apply (c : Dev nD) (t : Fin cfg2.N) (k : Fin 128) (q : Fin 40) :
    (iblk2 V c 1 t : Vec Ideal S128x40 .f32) (ix2 k q)
      = (V c (Pipeline.arrRef spec2 1) : S128x40.Idx → Elt Ideal .f32) (ix2 k q) := by
  obtain ⟨-, -, e2, e3, -, -⟩ := indexFacts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * k.val = k.val; omega
  | ⟨1, _⟩ => show win2_1.index t (1 : Fin 2) * 40 + 1 * q.val = q.val; omega

/-- What point t writes back is block t of the product of the two arrays as the region finds them: entry (p, q) of the
    block is the sum over k of row (block index)·5000 + p of the left array against column q of the right one, which is
    the product's entry at the place the output's block puts (p, q). -/
theorem flushed2_eq (c : Dev nD) (t : Fin cfg2.N) :
    (dat2 (F := Ideal) V c).flushed 2 t = ((cfg2.win 2).blk t).view.read (Elt Ideal)
      (RowsTimes.rowsTimes (M := 100000) (K := 128) (N := 40) (V c (Pipeline.arrRef spec2 0)) (V c (Pipeline.arrRef spec2 1))) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S128x40) zeroOffsets]
  obtain ⟨-, -, -, -, e4, e5⟩ := indexFacts2 t
  funext j
  obtain ⟨p, q, rfl⟩ : ∃ (p : Fin 5000) (q : Fin 40), j = ix2 p q := ⟨j 0, j 1, eq_ix2 j⟩
  show k2_pay1 (iblk2 V c 0 t) (iblk2 V c 1 t) (ix2 p q)
    = RowsTimes.rowsTimes (M := 100000) (K := 128) (N := 40) (V c (Pipeline.arrRef spec2 0)) (V c (Pipeline.arrRef spec2 1))
        (((cfg2.win 2).blk t).view.emb (ix2 p q))
  have hrow : win2_2.index t (0 : Fin 2) * 5000 + p.val < 100000 := by have := p.isLt; omega
  have hemb : ((cfg2.win 2).blk t).view.emb (ix2 p q)
      = (ix2 (⟨win2_2.index t (0 : Fin 2) * 5000 + p.val, hrow⟩ : Fin 100000) q : S100000x40.Idx) := by
    funext a
    apply Fin.ext
    match a with
    | ⟨0, _⟩ => show win2_2.index t (0 : Fin 2) * 5000 + 1 * p.val = win2_2.index t (0 : Fin 2) * 5000 + p.val; omega
    | ⟨1, _⟩ => show win2_2.index t (1 : Fin 2) * 40 + 1 * q.val = q.val; omega
  rw [hemb, RowsTimes.rowsTimes_apply, payload2_apply]
  refine Finset.sum_congr rfl fun k _ => ?_
  rw [rowBlock2_apply V c t p k ⟨win2_2.index t (0 : Fin 2) * 5000 + p.val, hrow⟩ rfl, wholeBlock2_apply V c t k q]

/-- An index of the output array is in point t's block iff each coordinate is in the block's range on its axis. -/
theorem mem_block2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v46).slice (win2_2.rect t)).set ↔ _
  rw [View.set_slice_whole, Rect.mem_set_unit]
  exact Iff.rfl

/-- The twenty row blocks tile the output: row r is in the block of the point whose block index is r / 5000. -/
theorem cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := indexOnto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- The output array after the region is the product of the two arrays the region found: every point writes back its
    block of that product, and the blocks cover the array. -/
theorem product2 (c : Dev nD) :
    (dat2 (F := Ideal) V c).arrAt 2 cfg2.N
      = RowsTimes.rowsTimes (M := 100000) (K := 128) (N := 40) (V c (Pipeline.arrRef spec2 0)) (V c (Pipeline.arrRef spec2 1)) :=
  (dat2 (F := Ideal) V c).arrAt_eq_of_cover 2 _ (fun t _ => flushed2_eq V c t) cover2

end Cert.KernelIdeal.TileProducts
end
-- ==== Proof.TileBias.lean ====
/-
  The two bias passes of the two-layer graph convolution, each read as ONE function of its input arrays.

  A bias pass walks the 100000 rows of its input in 20 tiles of 5000 rows. At tile `t` it reads rows
  `5000·t … 5000·t + 4999` of the input, reads the whole one-row bias array, adds the bias row to every row of the
  tile (the first pass then takes the maximum with 0), and writes the result back over the same rows of the output.
  Since the 20 tiles cover every row exactly once, the output array after the pass is, index by index,
  `out (r, k) = in (r, k) + bias (0, k)` (first pass: `max (in (r, k) + bias (0, k)) 0`).

  Per pass: the relations between the three block-index maps, decided over the 20 grid points; the tile's payload
  read at one index; what a block of each input holds, as an element of the input array; what one point writes back
  (a block of the closed-form function); which indices a point's block covers; every index is covered; the array.
-/
import proofs.«104721_j30751965839417_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.TileBias

open Cert.KernelIdeal Cert.KernelIdeal.Gen Idealize.ShloMosaic Idealize.ShloMosaic.TcCoe Idealize.SL.Sem Idealize.ShloMosaic.ValueIdx
open Idealize.ShloMosaic.Pipeline (Dat Cfg Window)

-- the buffer contents when a pass is entered
variable (V : (c : Dev nD) → (b : Ref sig .tc) → Buf (Elt Ideal) ((c : Thread nD τ).loc b))

/-- The offsets `(0, 0)` of a whole-block access are the zero function. -/
theorem zero_offsets : (![0, 0] : Fin 2 → Nat) = fun _ => 0 := funext fun a => by fin_cases a <;> rfl

/-! ## The first bias pass: 128 columns, then the maximum with 0 -/

/-- The block-index maps over the 20 tiles: the input tile moves with the output tile along the rows, every
    column index is 0, the bias array is always block `(0, 0)`, and the row index stays below 20. -/
theorem index_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the 20 row tiles of the output is some point's block. -/
theorem index_onto1 : ∀ q : Fin 20, ∃ t : Fin cfg1.N, win1_2.index t = ![q.val, 0] :=
  (by decide +kernel : ∀ q : Fin 20, ∃ t : Fin grid1.N, win1_2.index t = ![q.val, 0])

/-- The tile's payload at `(p, q)`: the input tile's element plus the bias row's element of the same column, then the
    maximum with the constant 0. -/
theorem payload1_apply (x0 : Vec Ideal S5000x128 .f32) (x1 : Vec Ideal S1x128 .f32) (p : Fin 5000) (q : Fin 128) :
    k1_pay1 x0 x1 (ix2 p q) = FloatOps.maximumf (FloatOps.addf (x0 (ix2 p q)) (x1 (ix2 (0 : Fin 1) q)))
      (Scalar.ofBits (F := Ideal) .f32 0x00000000#32) := by
  unfold k1_pay1
  simp only [shapeCast_self]
  have hb : broadcastTo S5000x128 (x1 : FVec Ideal S1x128 .f32) broadcasts_S1x128_S5000x128 (ix2 p q) = x1 (ix2 (0 : Fin 1) q) :=
    broadcastTo_1b_ab_apply (a := 5000) (b := 128) x1 broadcasts_S1x128_S5000x128 p q
  show FloatOps.maximumf (F := Ideal) (φ := .f32) (FloatOps.addf (F := Ideal) (φ := .f32) (x0 (ix2 p q))
    (broadcastTo S5000x128 (x1 : FVec Ideal S1x128 .f32) broadcasts_S1x128_S5000x128 (ix2 p q)))
    (Scalar.ofBits (F := Ideal) .f32 0x00000000#32) = _
  rw [hb]

/-- The pass as one function of its two arrays: `(r, k) ↦ max (a (r, k) + b (0, k)) 0`. -/
abbrev biasedRows1 (a : S100000x128.Idx → Elt Ideal .f32) (b : S1x128.Idx → Elt Ideal .f32) : S100000x128.Idx → Elt Ideal .f32 :=
  fun i => FloatOps.maximumf (F := Ideal) (φ := .f32) (FloatOps.addf (F := Ideal) (φ := .f32) (a i) (b (ix2 (0 : Fin 1) (i 1))))
    (Scalar.ofBits (F := Ideal) .f32 0x00000000#32)

/-- The input tile at point `t`, read at `(p, q)`, is the input array at row `5000 · (tile index) + p`, column `q`. -/
theorem rows_block1 (c : Dev nD) (t : Fin cfg1.N) (p : Fin 5000) (q : Fin 128) (i : S100000x128.Idx)
    (h0 : (i 0).val = win1_2.index t (0 : Fin 2) * 5000 + p.val) (h1 : (i 1).val = q.val) :
    (iblk1 V c 0 t : Vec Ideal S5000x128 .f32) (ix2 p q) = V c (Pipeline.arrRef spec1 0) i := by
  obtain ⟨e0, e1, e2, e3, e4, e5⟩ := index_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = (i 0).val; omega
  | ⟨1, _⟩ => show win1_0.index t (1 : Fin 2) * 128 + 1 * q.val = (i 1).val; omega

/-- The bias block at any point is the whole one-row bias array. -/
theorem bias_block1 (c : Dev nD) (t : Fin cfg1.N) (q : Fin 128) :
    (iblk1 V c 1 t : Vec Ideal S1x128 .f32) (ix2 (0 : Fin 1) q) = V c (Pipeline.arrRef spec1 1) (ix2 (0 : Fin 1) q) := by
  obtain ⟨e0, e1, e2, e3, e4, e5⟩ := index_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * 0 = 0; omega
  | ⟨1, _⟩ => show win1_1.index t (1 : Fin 2) * 128 + 1 * q.val = q.val; omega

/-- What point `t` writes back is tile `t` of `biasedRows1` of the two arrays as the pass finds them. -/
theorem flushed1_eq (c : Dev nD) (t : Fin cfg1.N) :
    (dat1 (F := Ideal) V c).flushed 2 t
      = ((cfg1.win 2).blk t).view.read (Elt Ideal) (biasedRows1 (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  funext j
  show k1_pay1 (iblk1 V c 0 t) (iblk1 V c 1 t) j
    = FloatOps.maximumf (F := Ideal) (φ := .f32)
        (FloatOps.addf (F := Ideal) (φ := .f32) (V c (Pipeline.arrRef spec1 0) (((cfg1.win 2).blk t).view.emb j))
          (V c (Pipeline.arrRef spec1 1) (ix2 (0 : Fin 1) ((((cfg1.win 2).blk t).view.emb j) 1))))
        (Scalar.ofBits (F := Ideal) .f32 0x00000000#32)
  obtain ⟨p, q, rfl⟩ : ∃ (p : Fin 5000) (q : Fin 128), j = ix2 p q := ⟨j 0, j 1, eq_ix2 (n0 := 5000) (n1 := 128) j⟩
  rw [payload1_apply]
  obtain ⟨e0, e1, e2, e3, e4, e5⟩ := index_facts1 t
  have hcol : ((((cfg1.win 2).blk t).view.emb (ix2 p q)) 1).val = q.val := by
    show win1_2.index t (1 : Fin 2) * 128 + 1 * q.val = q.val
    omega
  have hq : ((((cfg1.win 2).blk t).view.emb (ix2 p q)) 1 : Fin 128) = q := Fin.ext hcol
  refine congrArg (fun z => FloatOps.maximumf (F := Ideal) (φ := .f32) z (Scalar.ofBits (F := Ideal) .f32 0x00000000#32)) ?_
  refine congrArg₂ (FloatOps.addf (F := Ideal) (φ := .f32)) ?_ ?_
  · refine rows_block1 V c t p q _ ?_ hcol
    show win1_2.index t (0 : Fin 2) * 5000 + 1 * p.val = _
    omega
  · exact (bias_block1 V c t q).trans
      (congrArg (fun z : Fin 128 => V c (Pipeline.arrRef spec1 1) (ix2 (0 : Fin 1) z)) hq.symm)

/-- An index of the output array is in point `t`'s tile iff each coordinate is in the tile's range on its axis. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row `r` is covered by the point whose tile index is `r / 5000`. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the first bias pass: the maximum of the input plus the bias row and 0, index by index. -/
theorem biased1 (c : Dev nD) :
    (dat1 (F := Ideal) V c).arrAt 2 cfg1.N
      = fun i : S100000x128.Idx => FloatOps.maximumf (FloatOps.addf (V c (Pipeline.arrRef spec1 0) i) (V c (Pipeline.arrRef spec1 1) (ix2 (0 : Fin 1) (i 1))))
          (Scalar.ofBits (F := Ideal) .f32 0x00000000#32) :=
  (dat1 (F := Ideal) V c).arrAt_eq_of_cover 2 _ (fun t _ => flushed1_eq V c t) cover1

/-! ## The second bias pass: 40 columns, no maximum -/

/-- The block-index maps over the 20 tiles: the input tile moves with the output tile along the rows, every
    column index is 0, the bias array is always block `(0, 0)`, and the row index stays below 20. -/
theorem index_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 19 :=
  (by decide +kernel : ∀ t : Fin grid3.N, _)

/-- Every one of the 20 row tiles of the output is some point's block. -/
theorem index_onto3 : ∀ q : Fin 20, ∃ t : Fin cfg3.N, win3_2.index t = ![q.val, 0] :=
  (by decide +kernel : ∀ q : Fin 20, ∃ t : Fin grid3.N, win3_2.index t = ![q.val, 0])

/-- The tile's payload at `(p, q)`: the input tile's element plus the bias row's element of the same column. -/
theorem payload3_apply (x0 : Vec Ideal S5000x40 .f32) (x1 : Vec Ideal S1x40 .f32) (p : Fin 5000) (q : Fin 40) :
    k3_pay1 x0 x1 (ix2 p q) = FloatOps.addf (x0 (ix2 p q)) (x1 (ix2 (0 : Fin 1) q)) := by
  unfold k3_pay1
  simp only [shapeCast_self]
  have hb : broadcastTo S5000x40 (x1 : FVec Ideal S1x40 .f32) broadcasts_S1x40_S5000x40 (ix2 p q) = x1 (ix2 (0 : Fin 1) q) :=
    broadcastTo_1b_ab_apply (a := 5000) (b := 40) x1 broadcasts_S1x40_S5000x40 p q
  show FloatOps.addf (F := Ideal) (φ := .f32) (x0 (ix2 p q))
    (broadcastTo S5000x40 (x1 : FVec Ideal S1x40 .f32) broadcasts_S1x40_S5000x40 (ix2 p q)) = _
  rw [hb]

/-- The pass as one function of its two arrays: `(r, k) ↦ a (r, k) + b (0, k)`. -/
abbrev biasedRows3 (a : S100000x40.Idx → Elt Ideal .f32) (b : S1x40.Idx → Elt Ideal .f32) : S100000x40.Idx → Elt Ideal .f32 :=
  fun i => FloatOps.addf (F := Ideal) (φ := .f32) (a i) (b (ix2 (0 : Fin 1) (i 1)))

/-- The input tile at point `t`, read at `(p, q)`, is the input array at row `5000 · (tile index) + p`, column `q`. -/
theorem rows_block3 (c : Dev nD) (t : Fin cfg3.N) (p : Fin 5000) (q : Fin 40) (i : S100000x40.Idx)
    (h0 : (i 0).val = win3_2.index t (0 : Fin 2) * 5000 + p.val) (h1 : (i 1).val = q.val) :
    (iblk3 V c 0 t : Vec Ideal S5000x40 .f32) (ix2 p q) = V c (Pipeline.arrRef spec3 0) i := by
  obtain ⟨e0, e1, e2, e3, e4, e5⟩ := index_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = (i 0).val; omega
  | ⟨1, _⟩ => show win3_0.index t (1 : Fin 2) * 40 + 1 * q.val = (i 1).val; omega

/-- The bias block at any point is the whole one-row bias array. -/
theorem bias_block3 (c : Dev nD) (t : Fin cfg3.N) (q : Fin 40) :
    (iblk3 V c 1 t : Vec Ideal S1x40 .f32) (ix2 (0 : Fin 1) q) = V c (Pipeline.arrRef spec3 1) (ix2 (0 : Fin 1) q) := by
  obtain ⟨e0, e1, e2, e3, e4, e5⟩ := index_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * 0 = 0; omega
  | ⟨1, _⟩ => show win3_1.index t (1 : Fin 2) * 40 + 1 * q.val = q.val; omega

/-- What point `t` writes back is tile `t` of `biasedRows3` of the two arrays as the pass finds them. -/
theorem flushed3_eq (c : Dev nD) (t : Fin cfg3.N) :
    (dat3 (F := Ideal) V c).flushed 2 t
      = ((cfg3.win 2).blk t).view.read (Elt Ideal) (biasedRows3 (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S5000x40) zero_offsets, View.ld_unit_zero (S := S1x40) zero_offsets]
  funext j
  show k3_pay1 (iblk3 V c 0 t) (iblk3 V c 1 t) j
    = FloatOps.addf (F := Ideal) (φ := .f32) (V c (Pipeline.arrRef spec3 0) (((cfg3.win 2).blk t).view.emb j))
        (V c (Pipeline.arrRef spec3 1) (ix2 (0 : Fin 1) ((((cfg3.win 2).blk t).view.emb j) 1)))
  obtain ⟨p, q, rfl⟩ : ∃ (p : Fin 5000) (q : Fin 40), j = ix2 p q := ⟨j 0, j 1, eq_ix2 (n0 := 5000) (n1 := 40) j⟩
  rw [payload3_apply]
  obtain ⟨e0, e1, e2, e3, e4, e5⟩ := index_facts3 t
  have hcol : ((((cfg3.win 2).blk t).view.emb (ix2 p q)) 1).val = q.val := by
    show win3_2.index t (1 : Fin 2) * 40 + 1 * q.val = q.val
    omega
  have hq : ((((cfg3.win 2).blk t).view.emb (ix2 p q)) 1 : Fin 40) = q := Fin.ext hcol
  refine congrArg₂ (FloatOps.addf (F := Ideal) (φ := .f32)) ?_ ?_
  · refine rows_block3 V c t p q _ ?_ hcol
    show win3_2.index t (0 : Fin 2) * 5000 + 1 * p.val = _
    omega
  · exact (bias_block3 V c t q).trans
      (congrArg (fun z : Fin 40 => V c (Pipeline.arrRef spec3 1) (ix2 (0 : Fin 1) z)) hq.symm)

/-- An index of the output array is in point `t`'s tile iff each coordinate is in the tile's range on its axis. -/
theorem mem_block3 (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v91).slice (win3_2.rect t)).set ↔ _
  rw [View.set_slice_whole, Rect.mem_set_unit]
  exact Iff.rfl

/-- Row `r` is covered by the point whose tile index is `r / 5000`. -/
theorem cover3 (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := index_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- THE OUTPUT ARRAY after the second bias pass: the input plus the bias row, index by index. -/
theorem biased3 (c : Dev nD) :
    (dat3 (F := Ideal) V c).arrAt 2 cfg3.N
      = fun i : S100000x40.Idx => FloatOps.addf (F := Ideal) (φ := .f32) (V c (Pipeline.arrRef spec3 0) i) (V c (Pipeline.arrRef spec3 1) (ix2 (0 : Fin 1) (i 1))) :=
  (dat3 (F := Ideal) V c).arrAt_eq_of_cover 2 _ (fun t _ => flushed3_eq V c t) cover3

end Cert.KernelIdeal.TileBias

end
-- ==== Proof.LibBiasRow.lean ====
/-
  A bias vector spread over the rows of a matrix, read at an entry.

  A `[b]` vector is turned into an `[a, b]` matrix by two `broadcast_in_dim`s: first to one row `[1, b]` (the vector's
  axis becomes the column axis), then that row to all `a` rows. Read at the entry `(r, q)`, the second broadcast reads
  the one row at `(0, q)` (the row axis of its operand is a unit axis) and the first reads the vector at `q`. The same
  vector RESHAPED to one row, read at `(0, q)`, is also the vector at `q`. So the matrix's entry `(r, q)` is the
  reshaped row's entry `(0, q)`: every row of the matrix is that one row. Nothing here depends on the element type or on
  the extents, and the side conditions of the three operations may be any proofs.
-/
import Idealize.ShloMosaic.Lib.Pipeline.Value
import Idealize.ShloMosaic.Lib.ValueIdx
import Idealize.ShloMosaic.Lib.ValueLayout

namespace Cert.BiasRow

open Idealize.ShloMosaic Idealize.ShloMosaic.ValueIdx

/-- A `[b]` vector broadcast to one row `[1, b]` reads, at `(u, q)`, the vector at `q`. -/
theorem row_apply {α : Type} {b : ℕ} (v : (⟨1, ![b]⟩ : Shape).Idx → α)
    (h1 : (⟨1, ![b]⟩ : Shape).BroadcastsInDim ⟨2, ![1, b]⟩ ![1]) (u : Fin 1) (q : Fin b) :
    broadcastInDim ⟨2, ![1, b]⟩ ![1] h1 v (ix2 u q) = v (ix1 q) := by
  refine broadcastInDim_apply _ h1 v (ix2 u q) (ix1 q) fun ax => ?_
  match ax with
  | ⟨0, _⟩ =>
    show q.val = if b = 1 then 0 else q.val
    split
    · have := q.isLt; omega
    · rfl

/-- A `[1, b]` row broadcast over `a` rows reads, at `(r, q)`, the row at `(0, q)`. -/
theorem rows_apply {α : Type} {a b : ℕ} (w : (⟨2, ![1, b]⟩ : Shape).Idx → α)
    (h2 : (⟨2, ![1, b]⟩ : Shape).BroadcastsInDim ⟨2, ![a, b]⟩ ![0, 1]) (r : Fin a) (q : Fin b) :
    broadcastInDim ⟨2, ![a, b]⟩ ![0, 1] h2 w (ix2 r q) = w (ix2 (0 : Fin 1) q) := by
  refine broadcastInDim_apply _ h2 w (ix2 r q) (ix2 (0 : Fin 1) q) fun ax => ?_
  match ax with
  | ⟨0, _⟩ => rfl
  | ⟨1, _⟩ =>
    show q.val = if b = 1 then 0 else q.val
    split
    · have := q.isLt; omega
    · rfl

/-- THE BIAS OVER THE ROWS: the vector broadcast to one row and then over `a` rows, read at any entry, is the vector
    reshaped to one row read at that entry's column: both are the vector at the column. -/
theorem row_over_rows_eq_cast {α : Type} {a b : ℕ} (v : (⟨1, ![b]⟩ : Shape).Idx → α)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (i : (⟨2, ![a, b]⟩ : Shape).Idx) :
    broadcastInDim ⟨2, ![a, b]⟩ ![0, 1] h2 (broadcastInDim ⟨2, ![1, b]⟩ ![1] h1 v) i
      = shapeCast ⟨2, ![1, b]⟩ v hc (ix2 (0 : Fin 1) (i 1)) := by
  obtain ⟨r, q, rfl⟩ : ∃ (r : Fin a) (q : Fin b), i = ix2 r q := ⟨i 0, i 1, eq_ix2 i⟩
  show _ = shapeCast ⟨2, ![1, b]⟩ v hc (ix2 (0 : Fin 1) q)
  rw [rows_apply, row_apply, shapeCast_a_1a_apply]

end Cert.BiasRow
-- ==== Proof.KernelValue.lean ====
/-
  The idealized kernel's result buffer, read back through its ten segments, is the two-layer network of the arguments.

  Segment by segment, on every core: region 0 leaves the product x·W1 in its output array (each row tile is the product
  of that tile of x with the whole W1); the host stretch that follows applies the aggregation chain to it and reshapes
  the bias b1 to one row; region 1 adds that row to every row and takes max(., 0); region 2 multiplies by W2; the second
  host stretch aggregates again and reshapes b2; region 3 adds it. The host's dot_general of a plain product is the same
  sum of products the matrix unit computes into a zero accumulator, and the reference's two broadcasts of a bias vector
  read the same entry as the kernel's one-row reshape, so each boundary's contents is the corresponding stage of
  `GraphLayer.network`; the aggregation chain is never opened, and no step needs the inputs to be finite.
-/
import proofs.«104721_j30751965839417_1_alg».proof.Proof.HostChain
import proofs.«104721_j30751965839417_1_alg».proof.Proof.TileProducts
import proofs.«104721_j30751965839417_1_alg».proof.Proof.TileBias
import proofs.«104721_j30751965839417_1_alg».proof.Proof.LibRowsTimes
import proofs.«104721_j30751965839417_1_alg».proof.Proof.LibBiasRow
import Idealize.ShloMosaic.Lib.ValueIdx
import Idealize.ShloMosaic.Lib.ValueLayout

set_option maxRecDepth 16384

noncomputable section

namespace Cert.KernelIdeal.NetworkValue

open Cert.KernelIdeal Cert.KernelIdeal.Gen Idealize.ShloMosaic Idealize.ShloMosaic.TcCoe Idealize.SL.Sem
open Idealize.ShloMosaic.ValueIdx Cert.KernelIdeal.HostChain

/-! ## One entry of a bias pass, for any float instance

  The kernel adds the bias vector reshaped to one row and read at row 0; the reference adds the vector broadcast to one row and
  then down all rows. Both read the vector at the entry's column. Stated for any float instance, so that the operations stay
  names. -/

section Entries

variable {F : FTy → Type} [FloatOps F]

/-- An entry of the first bias pass: `max (A + b1, 0)`, the kernel's spelling against the reference's. -/
theorem hidden_entry (A : (⟨Cert.ReferenceIdeal.S100000x128, .f32⟩ : BufTy).Contents (Elt F))
    (b1 : (⟨Cert.ReferenceIdeal.S128, .f32⟩ : BufTy).Contents (Elt F)) (i : Cert.ReferenceIdeal.S100000x128.Idx) :
    FloatOps.maximumf (FloatOps.addf (A i) (shapeCast S1x128 b1 shapeCasts_S128_S1x128 (ix2 (0 : Fin 1) (i 1))))
        (FloatOps.ofBits (F := F) .f32 0x00000000#32)
      = maximumf (addf A (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 b1)))
          (broadcastInDim Cert.ReferenceIdeal.S100000x128 ![] Cert.ReferenceIdeal.Facts₀.bcast_S_S100000x128
            (constant Cert.ReferenceIdeal.S_ .f32 0x00000000#32)) i := by
  rw [← Cert.BiasRow.row_over_rows_eq_cast (a := 100000) b1 shapeCasts_S128_S1x128
    Cert.ReferenceIdeal.Facts₀.bcast_S128_S1x128_1 Cert.ReferenceIdeal.Facts₀.bcast_S1x128_S100000x128_0_1 i]
  rfl

/-- An entry of the second bias pass: `A + b2`. -/
theorem output_entry (A : (⟨Cert.ReferenceIdeal.S100000x40, .f32⟩ : BufTy).Contents (Elt F))
    (b2 : (⟨Cert.ReferenceIdeal.S40, .f32⟩ : BufTy).Contents (Elt F)) (i : Cert.ReferenceIdeal.S100000x40.Idx) :
    FloatOps.addf (F := F) (φ := .f32) (A i) (shapeCast S1x40 b2 shapeCasts_S40_S1x40 (ix2 (0 : Fin 1) (i 1)))
      = addf A (broadcastInDim Cert.ReferenceIdeal.S100000x40 ![0, 1] Cert.ReferenceIdeal.Facts₀.bcast_S1x40_S100000x40_0_1
            (broadcastInDim Cert.ReferenceIdeal.S1x40 ![1] Cert.ReferenceIdeal.Facts₀.bcast_S40_S1x40_1 b2)) i := by
  rw [← Cert.BiasRow.row_over_rows_eq_cast (a := 100000) b2 shapeCasts_S40_S1x40
    Cert.ReferenceIdeal.Facts₀.bcast_S40_S1x40_1 Cert.ReferenceIdeal.Facts₀.bcast_S1x40_S100000x40_0_1 i]
  rfl

end Entries

variable (m : (ℓ : Loc nD τ sig) → Buf (Elt Ideal) ℓ) (ρ : Dev nD → PrngReg)

/-- Region 0 leaves the product of x and W1: the host's dot_general of them. -/
theorem W1_v0 (c : Dev nD) :
    W1 m ρ c (Proc.devRef .tc main_v0)
      = Host.dotGeneral (F := Ideal) (φ₁ := .f32) (φ₂ := .f32) Cert.ReferenceIdeal.dot_S100000x256_S256x128_S100000x128_1_0_0_1_n_n none
          (m ((c : Thread nD τ).loc main_arg0)) (m ((c : Thread nD τ).loc main_arg2)) := by
  refine ((W1_arr m ρ c 2).trans (TileProducts.product0 (V0 m ρ) c)).trans ?_
  exact (RowsTimes.hostDot_eq (φ₁ := .f32) (φ₂ := .f32) Cert.ReferenceIdeal.dot_S100000x256_S256x128_S100000x128_1_0_0_1_n_n
    rfl rfl rfl rfl rfl rfl rfl rfl none (m ((c : Thread nD τ).loc main_arg0)) (m ((c : Thread nD τ).loc main_arg2))).symm

/-- Region 1 leaves the first layer: the aggregated product plus the bias row, cut off below at 0. -/
theorem W5_v45 (c : Dev nD) :
    W5 m ρ c (Proc.devRef .tc main_v45)
      = Cert.GraphLayer.hidden (F := Ideal) (m ((c : Thread nD τ).loc main_arg0)) (m ((c : Thread nD τ).loc main_arg1)) (m ((c : Thread nD τ).loc main_arg2)) (m ((c : Thread nD τ).loc main_arg3)) := by
  refine ((W5_arr m ρ c 2).trans (TileBias.biased1 (V4 m ρ) c)).trans ?_
  funext i
  show FloatOps.maximumf (FloatOps.addf (W4 m ρ c (Proc.devRef .tc main_v43) i) (W4 m ρ c (Proc.devRef .tc main_v44) (ix2 (0 : Fin 1) (i 1))))
      (Scalar.ofBits (F := Ideal) .f32 0x00000000#32) = _
  rw [W4_v43 m ρ c, W4_v44 m ρ c, W1_v0 m ρ c, W1_arg1 m ρ c, W1_arg3 m ρ c]
  unfold Cert.GraphLayer.hidden
  generalize Cert.GraphLayer.aggregate128 (F := Ideal) _ _ = A
  exact hidden_entry (F := Ideal) A (m ((c : Thread nD τ).loc main_arg3)) i

/-- Region 2 leaves the product of the first layer and W2. -/
theorem W6_v46 (c : Dev nD) :
    W6 m ρ c (Proc.devRef .tc main_v46)
      = Host.dotGeneral (F := Ideal) (φ₁ := .f32) (φ₂ := .f32) Cert.ReferenceIdeal.dot_S100000x128_S128x40_S100000x40_1_0_0_1_n_n none
          (Cert.GraphLayer.hidden (F := Ideal) (m ((c : Thread nD τ).loc main_arg0)) (m ((c : Thread nD τ).loc main_arg1)) (m ((c : Thread nD τ).loc main_arg2)) (m ((c : Thread nD τ).loc main_arg3)))
          (m ((c : Thread nD τ).loc main_arg4)) := by
  refine ((W6_arr m ρ c 2).trans (TileProducts.product2 (V5 m ρ) c)).trans ?_
  show RowsTimes.rowsTimes (M := 100000) (K := 128) (N := 40) (W5 m ρ c (Proc.devRef .tc main_v45)) (W5 m ρ c (Proc.devRef .tc main_arg4)) = _
  rw [W5_v45 m ρ c, W5_arg4 m ρ c]
  exact (RowsTimes.hostDot_eq (φ₁ := .f32) (φ₂ := .f32) Cert.ReferenceIdeal.dot_S100000x128_S128x40_S100000x40_1_0_0_1_n_n
    rfl rfl rfl rfl rfl rfl rfl rfl none _ (m ((c : Thread nD τ).loc main_arg4))).symm

/-- Region 3 leaves the network's output: the aggregated second product plus the second bias row. -/
theorem W10_v91 (c : Dev nD) :
    W10 m ρ c (Proc.devRef .tc main_v91)
      = Cert.GraphLayer.network (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) := by
  refine ((W10_arr m ρ c 2).trans (TileBias.biased3 (V9 m ρ) c)).trans ?_
  funext i
  show FloatOps.addf (F := Ideal) (φ := .f32) (W9 m ρ c (Proc.devRef .tc main_v89) i) (W9 m ρ c (Proc.devRef .tc main_v90) (ix2 (0 : Fin 1) (i 1))) = _
  rw [W9_v89 m ρ c, W9_v90 m ρ c, W6_v46 m ρ c, W6_arg1 m ρ c, W6_arg5 m ρ c]
  unfold Cert.GraphLayer.network
  generalize Cert.GraphLayer.aggregate40 (F := Ideal) _ _ = A
  exact output_entry (F := Ideal) A (m ((c : Thread nD τ).loc main_arg5)) i

end Cert.KernelIdeal.NetworkValue

end
-- ==== Proof.ReferenceValue.lean ====
/-
  The reference program's result is the two-layer network of its arguments.

  The reference's run ends with its result buffer at the composed term of its 123 host operations; that term IS the
  network function of `GraphLayer.lean` applied to the six argument arrays: the same operations in the same order, the
  aggregation chain named where the program spells it out (twice, once per layer).
-/
import proofs.«104721_j30751965839417_1_alg».proof.Proof.ReferenceRun
import proofs.«104721_j30751965839417_1_alg».proof.Proof.GraphLayer

set_option maxRecDepth 16384

noncomputable section

namespace Cert.ReferenceIdeal.NetworkValue

open Cert.ReferenceIdeal Cert.ReferenceIdeal.Gen Idealize.ShloMosaic Idealize.ShloMosaic.TcCoe Idealize.SL.Sem

variable {F : FTy → Type} [FloatOps F]

/-- The run's result term is the network of the launch contents of the arguments. -/
theorem result_eq (m : (ℓ : Loc nD τ sig) → Buf (Elt F) ℓ) (c : Dev nD) :
    Cert.ReferenceIdeal.RunP.res_main_v94 (F := F) m c
      = Cert.GraphLayer.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v94
  rfl

end Cert.ReferenceIdeal.NetworkValue

end
-- ==== Proof.lean ====
/-
  A two-layer graph convolution, out = A_hat (max (A_hat (x W1) + b1, 0) W2) + b2 with A_hat = D^(-1/2) (A + I) D^(-1/2),
  over 100,000 nodes and 1,600,000 edges: the kernel computes the two matrix products and the two bias passes in four
  pipelined regions (row tiles of 5,000 rows, operands narrowed to bf16 for the matrix unit) and leaves the aggregation
  (degrees, weights, gather, scale, scatter-add) to the host; the reference does everything on the host.

  Over the extended reals the two programs are the same function of the arguments, with no condition on them: narrowing a
  float is the identity; a row tile of a product is the product of that row tile with the whole right factor, and the matrix
  unit's product into a zero accumulator is the same sum over k of x(r,k)·w(k,c) as the host's dot_general; the bias row
  added by the kernel (the vector reshaped to one row, broadcast down a tile) is the entry the reference's two broadcasts
  read; max(., 0) is max(., 0); and the aggregation between the regions is, operation for operation, the reference's own
  chain, carried as one named function and never opened. So both runs end with the result buffer at `GraphLayer.network`
  of the six argument arrays. The three frames are the generated frame certificates (the reference's is its run with the
  result dropped), and the idealization rewrote nothing, so `preserves` is trivial.
-/
import proofs.«104721_j30751965839417_1_alg».proof.Defs
import proofs.«104721_j30751965839417_1_alg».proof.Proof.Gen.Kernel
import proofs.«104721_j30751965839417_1_alg».proof.Proof.Gen.Kernel.Skeleton
import proofs.«104721_j30751965839417_1_alg».proof.Proof.Gen.Kernel.Launch
import proofs.«104721_j30751965839417_1_alg».proof.Proof.Gen.Kernel.Points
import proofs.«104721_j30751965839417_1_alg».proof.Proof.Gen.Kernel.Frame
import proofs.«104721_j30751965839417_1_alg».proof.Proof.Gen.KernelIdeal
import proofs.«104721_j30751965839417_1_alg».proof.Proof.Gen.KernelIdeal.Skeleton
import proofs.«104721_j30751965839417_1_alg».proof.Proof.Gen.KernelIdeal.Launch
import proofs.«104721_j30751965839417_1_alg».proof.Proof.Gen.KernelIdeal.Points
import proofs.«104721_j30751965839417_1_alg».proof.Proof.Gen.KernelIdeal.Frame
import proofs.«104721_j30751965839417_1_alg».proof.Proof.Gen.ReferenceIdeal
import proofs.«104721_j30751965839417_1_alg».proof.Proof.Gen.Pre_finite_inputs
import proofs.«104721_j30751965839417_1_alg».proof.Proof.KernelRun
import proofs.«104721_j30751965839417_1_alg».proof.Proof.KernelValue
import proofs.«104721_j30751965839417_1_alg».proof.Proof.ReferenceRun
import proofs.«104721_j30751965839417_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both idealized programs end with the result at the network of the arguments, which agree. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.NetworkValue.W10_v91 m ρ c), (h c).2⟩)
      (Cert.KernelIdeal.RunValue.run (F := Ideal) m ρ), ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.NetworkValue.result_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
